-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  bcast_S_S8192x4096 : S_.BroadcastsInDim S8192x4096 (![] : Fin 0 → Fin S8192x4096.rank)
  reducesTo_S8192x4096_S_d0_1 : S8192x4096.ReducesTo [0, 1] S_
  h_S_ : 0 < S_.numel
  reducesTo_S4096x4096_S_d0_1 : S4096x4096.ReducesTo [0, 1] S_

variable [Facts]

def fn_part1 {F : FTy → Type} [FloatOps F] (main_v14 : IVec S_ 1) (main_v17 : IVec S4096x4096 1) : IVec S_ 1 :=
  let main_c_4 : IVec S_ 1 := constantI S_ 1 1#1
  let main_v18 : IVec S_ 1 := (fun x v => Host.reduce IntOp.andi x v reducesTo_S4096x4096_S_d0_1 h_S_) main_v17 main_c_4
  let main_v19 : IVec S_ 1 := andi main_v14 main_v18
  main_v19

def fn {F : FTy → Type} [FloatOps F] (main_arg0 : FVec F S8192x4096 .f32) (main_arg1 : FVec F S4096x4096 .f32) (main_arg2 : IVec S4096x4096 1) : IVec S_ 1 :=
  let main_v0 : IVec S4096x4096 32 := iotaInDim S4096x4096 32 0
  let main_c : IVec S_ 32 := constantI S_ 32 8#32
  let main_v1 : IVec S4096x4096 32 := broadcastInDim S4096x4096 ![] bcast_S_S4096x4096 main_c
  let main_v2 : IVec S4096x4096 32 := Host.shrui main_v0 main_v1
  let main_v3 : IVec S4096x4096 32 := iotaInDim S4096x4096 32 1
  let main_c_0 : IVec S_ 32 := constantI S_ 32 8#32
  let main_v4 : IVec S4096x4096 32 := broadcastInDim S4096x4096 ![] bcast_S_S4096x4096 main_c_0
  let main_v5 : IVec S4096x4096 32 := Host.shrui main_v3 main_v4
  let main_v6 : FVec F S8192x4096 .f32 := Host.absf main_arg0
  let main_cst : FVec F S_ .f32 := constant S_ .f32 0x7F800000#32
  let main_v7 : FVec F S8192x4096 .f32 := broadcastInDim S8192x4096 ![] bcast_S_S8192x4096 main_cst
  let main_v8 : IVec S8192x4096 1 := cmpf .olt main_v6 main_v7
  let main_c_1 : IVec S_ 1 := constantI S_ 1 1#1
  let main_v9 : IVec S_ 1 := (fun x v => Host.reduce IntOp.andi x v reducesTo_S8192x4096_S_d0_1 h_S_) main_v8 main_c_1
  let main_v10 : FVec F S4096x4096 .f32 := Host.absf main_arg1
  let main_cst_2 : FVec F S_ .f32 := constant S_ .f32 0x7F800000#32
  let main_v11 : FVec F S4096x4096 .f32 := broadcastInDim S4096x4096 ![] bcast_S_S4096x4096 main_cst_2
  let main_v12 : IVec S4096x4096 1 := cmpf .olt main_v10 main_v11
  let main_c_3 : IVec S_ 1 := constantI S_ 1 1#1
  let main_v13 : IVec S_ 1 := (fun x v => Host.reduce IntOp.andi x v reducesTo_S4096x4096_S_d0_1 h_S_) main_v12 main_c_3
  let main_v14 : IVec S_ 1 := andi main_v9 main_v13
  let main_v15 : IVec S4096x4096 1 := cmpi .eq main_v2 main_v5
  let main_v16 : IVec S4096x4096 1 := noti main_arg2
  let main_v17 : IVec S4096x4096 1 := ori main_v15 main_v16
  fn_part1 (F := F) main_v14 main_v17
-- ==== Kernel.lean ====
abbrev S8192x4096 : Shape := ⟨2, ![8192, 4096]⟩
abbrev S4096x4096 : Shape := ⟨2, ![4096, 4096]⟩
abbrev S2048x256 : Shape := ⟨2, ![2048, 256]⟩
abbrev S256x256 : Shape := ⟨2, ![256, 256]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .i1⟩
  | .hbm, ⟨3, _⟩ => ⟨S4096x4096, .f32⟩
  | .hbm, ⟨4, _⟩ => ⟨S8192x4096, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S2048x256, .f32⟩
  | .local _ .vmem, ⟨7, _⟩ => ⟨S2048x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S4096x4096.size a
  hwx0_1 : ∀ i : grid0.Coords, EltTy.bits .f32 = 32 ∨ (Rect.block (s := S4096x4096) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S4096x4096.size a
  hwx0_2 : ∀ i : grid0.Coords, EltTy.bits .f32 = 32 ∨ (Rect.block (s := S4096x4096) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x4096.size a
  hwx0_3 : ∀ i : grid0.Coords, EltTy.bits .f32 = 32 ∨ (Rect.block (s := S8192x4096) S2048x256.size (cc0_transform_3 i) (hinb0_3 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .i1⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibTileSum.lean ====
/-
  Regrouping finite sums indexed by `Fin`: a sum over `T * B` indices as `T` consecutive tiles of `B`,
  dropping a tail on which the summand vanishes, and a sum over `Fin n` as a sum over `Finset.range n`.
  Everything holds in any additive commutative monoid.
-/
import Mathlib.Algebra.BigOperators.Fin
import Mathlib.Logic.Equiv.Fin.Basic
import Mathlib.Tactic.Ring

namespace TileSum

open Finset

/-- The `j`-th index of the `t`-th tile of width `B` lies below `T * B`. -/
theorem tile_lt {T B : ℕ} (t : Fin T) (j : Fin B) : t.val * B + j.val < T * B := by
  have h1 : t.val * B + j.val < (t.val + 1) * B := by
    have := j.isLt
    rw [Nat.add_mul, Nat.one_mul]; omega
  exact lt_of_lt_of_le h1 (Nat.mul_le_mul_right B t.isLt)

/-- A sum over `T * B` indices, regrouped into `T` consecutive tiles of `B` indices each. -/
theorem sum_tiles {M : Type*} [AddCommMonoid M] {T B : ℕ} (f : Fin (T * B) → M) :
    ∑ t : Fin T, ∑ j : Fin B, f ⟨t.val * B + j.val, tile_lt t j⟩ = ∑ i : Fin (T * B), f i := by
  rw [← Equiv.sum_comp (finProdFinEquiv (m := T) (n := B)) f, Fintype.sum_prod_type]
  refine Fintype.sum_congr _ _ fun t => Fintype.sum_congr _ _ fun j => ?_
  congr 1
  apply Fin.ext
  simp only [finProdFinEquiv_apply_val]
  rw [Nat.mul_comm, Nat.add_comm]

/-- A sum over `n + e` indices whose summand vanishes from index `n` on is the sum over the first `n`. -/
theorem sum_drop_zero_tail {M : Type*} [AddCommMonoid M] {n e : ℕ} (f : Fin (n + e) → M)
    (h0 : ∀ i : Fin (n + e), n ≤ i.val → f i = 0) :
    ∑ i : Fin (n + e), f i = ∑ i : Fin n, f (Fin.castAdd e i) := by
  rw [Fin.sum_univ_add]
  have hz : ∑ j : Fin e, f (Fin.natAdd n j) = 0 :=
    Finset.sum_eq_zero fun j _ => h0 _ (by simp [Fin.natAdd])
  rw [hz, add_zero]

/-- Fourteen tiles of `384` cover `5376 = 5324 + 52` indices: when the summand vanishes from index `5324` on,
the tiled sum is the sum over the first `5324` indices. -/
theorem sum_tiles_14_384 {M : Type*} [AddCommMonoid M] (f : Fin 5376 → M)
    (h0 : ∀ i : Fin 5376, 5324 ≤ i.val → f i = 0) :
    ∑ t : Fin 14, ∑ j : Fin 384, f ⟨384 * t.val + j.val, by have := t.isLt; have := j.isLt; omega⟩
      = ∑ i : Fin 5324, f ⟨i.val, by have := i.isLt; omega⟩ := by
  have h1 := sum_tiles (T := 14) (B := 384) (M := M) f
  have h2 := sum_drop_zero_tail (n := 5324) (e := 52) (M := M) f h0
  have e1 : ∑ t : Fin 14, ∑ j : Fin 384, f ⟨384 * t.val + j.val, by have := t.isLt; have := j.isLt; omega⟩
      = ∑ t : Fin 14, ∑ j : Fin 384, f ⟨t.val * 384 + j.val, tile_lt t j⟩ :=
    Fintype.sum_congr _ _ fun t => Fintype.sum_congr _ _ fun j => by
      congr 1; apply Fin.ext; show 384 * t.val + j.val = t.val * 384 + j.val; rw [Nat.mul_comm]
  rw [e1, h1]
  exact h2

/-- A sum over `Fin 14` of a function of the index's value is the sum over `Finset.range 14`. -/
theorem sum_fin14_eq_range {M : Type*} [AddCommMonoid M] (P : ℕ → M) :
    ∑ t : Fin 14, P t.val = (Finset.range 14).sum P :=
  Fin.sum_univ_eq_sum_range P 14

/-- A sum over `Fin n` of a function of the index's value is the sum over `Finset.range n`. -/
theorem sum_fin_eq_range {M : Type*} [AddCommMonoid M] (n : ℕ) (P : ℕ → M) :
    ∑ t : Fin n, P t.val = (Finset.range n).sum P :=
  Fin.sum_univ_eq_sum_range P n

end TileSum
-- ==== Proof.LibBlockSum.lean ====
/-
  A sum over `T * B` indices whose summand vanishes outside one tile of `B` consecutive indices is the sum
  over that tile: the tile with number `b` holds the indices `b * B + j`, `j < B`, which are exactly the
  indices `k` with `k / B = b`. Everything holds in any additive commutative monoid.
-/
import proofs.«121382_j88570815578416_2_alg».proof.Proof.LibTileSum

namespace BlockSum

open Finset

/-- An index of tile `t` has quotient `t` by the tile width. -/
theorem tile_div {T B : ℕ} (t : Fin T) (j : Fin B) : (t.val * B + j.val) / B = t.val := by
  have hB : 0 < B := Nat.lt_of_le_of_lt (Nat.zero_le _) j.isLt
  rw [Nat.add_comm, Nat.add_mul_div_right _ _ hB, Nat.div_eq_of_lt j.isLt, Nat.zero_add]

/-- If the summand vanishes at every index whose quotient by `B` is not `b`, the sum over all `T * B` indices
    is the sum over tile `b`. -/
theorem sum_one_tile {M : Type*} [AddCommMonoid M] {T B : ℕ} (f : Fin (T * B) → M) (b : Fin T)
    (h0 : ∀ k : Fin (T * B), k.val / B ≠ b.val → f k = 0) :
    ∑ k : Fin (T * B), f k = ∑ j : Fin B, f ⟨b.val * B + j.val, TileSum.tile_lt b j⟩ := by
  rw [← TileSum.sum_tiles f]
  refine Finset.sum_eq_single b (fun t _ hne => ?_) (fun h => absurd (Finset.mem_univ b) h)
  refine Finset.sum_eq_zero fun j _ => h0 _ ?_
  show (t.val * B + j.val) / B ≠ b.val
  rw [tile_div]
  exact fun h => hne (Fin.ext h)

end BlockSum
-- ==== Proof.Spec.lean ====
/-
  The mathematics of the kernel and of its reference, on the extended reals.

  The weight matrix is `W = tanh (blocks * maskf)`, entry by entry, a 4096 x 4096 array (`maskf` is the mask
  read as numbers 0 / 1). The reference multiplies the 8192 x 4096 array `x` by the whole of `W`:
  entry `(r, c)` is the sum over all 4096 `k` of `x (r, k) * W (k, c)`. The kernel multiplies only by the
  diagonal 256 x 256 block of `W` that column `c` meets: with `b = c / 256` its entry `(r, c)` is the sum
  over the 256 indices `k = 256 b + j` of the same products.

  The two agree as soon as `W (k, c) = 0` whenever `k` and `c` lie in different blocks (`k / 256 ≠ c / 256`):
  the other 15 tiles of the long sum are sums of `x (r, k) * 0 = 0`. And `W` does vanish there when the mask
  does: `blocks (k, c) * 0 = 0` on the extended reals, whatever `blocks (k, c)` is, and `tanh 0 = 0`.
  No finiteness is used.
-/
import Idealize.ShloMosaic.Lib.ValueIdx
import Idealize.ShloMosaic.PureOps.Ideal
import proofs.«121382_j88570815578416_2_alg».proof.Proof.LibBlockSum

noncomputable section

open scoped BigOperators

namespace Cert.BlockDiag

open Idealize.ShloMosaic Idealize.ShloMosaic.ValueIdx

abbrev SX : Shape := ⟨2, ![8192, 4096]⟩
abbrev SW : Shape := ⟨2, ![4096, 4096]⟩

/-- The `j`-th index of the block of 256 consecutive indices that holds `c`. -/
def inBlock (c : Fin 4096) (j : Fin 256) : Fin 4096 :=
  ⟨c.val / 256 * 256 + j.val, by have := c.isLt; have := j.isLt; omega⟩

theorem inBlock_val (c : Fin 4096) (j : Fin 256) : (inBlock c j).val = c.val / 256 * 256 + j.val := rfl

/-- The weight matrix: `tanh` of the masked entry. -/
def weight (blocks maskf : SW.Idx → EReal) : SW.Idx → EReal := fun i => Ideal.tanh (blocks i * maskf i)

/-- The reference's result: `x` times the whole weight matrix. -/
def dense (x : SX.Idx → EReal) (w : SW.Idx → EReal) : SX.Idx → EReal :=
  fun i => ∑ k : Fin 4096, x (ix2 (i 0) k) * w (ix2 k (i 1))

/-- The kernel's result: each column against the diagonal block of the weight matrix it meets. -/
def blockwise (x : SX.Idx → EReal) (w : SW.Idx → EReal) : SX.Idx → EReal :=
  fun i => ∑ j : Fin 256, x (ix2 (i 0) (inBlock (i 1) j)) * w (ix2 (inBlock (i 1) j) (i 1))

/-- Where the mask is zero the weight is zero: `a * 0 = 0` for every extended real `a`, and `tanh 0 = 0`. -/
theorem weight_eq_zero (blocks maskf : SW.Idx → EReal) (i : SW.Idx) (h : maskf i = 0) : weight blocks maskf i = 0 := by
  unfold weight
  rw [h, mul_zero, ← EReal.coe_zero, Ideal.tanh_coe, Real.tanh_zero]

/-- A weight matrix that vanishes off the diagonal blocks gives the same product block by block. -/
theorem dense_eq_blockwise (x : SX.Idx → EReal) (w : SW.Idx → EReal)
    (hoff : ∀ k c : Fin 4096, k.val / 256 ≠ c.val / 256 → w (ix2 k c) = 0) : dense x w = blockwise x w := by
  funext i
  have hc : (i 1).val < 4096 := (i 1).isLt
  have h := BlockSum.sum_one_tile (T := 16) (B := 256) (M := EReal)
    (fun k : Fin (16 * 256) => x (ix2 (i 0) k) * w (ix2 k (i 1))) ⟨(i 1).val / 256, by omega⟩
    (fun k hk => by
      show x (ix2 (i 0) k) * w (ix2 k (i 1)) = 0
      rw [hoff k (i 1) hk, mul_zero])
  exact h

end Cert.BlockDiag

end
-- ==== Proof.PreMask.lean ====
/-
  What the precondition says about the mask. Beside the finiteness of the two float inputs it holds a third
  conjunct: at every index `(k, c)` of the 4096 x 4096 mask, either `k` and `c` lie in the same block of 256
  consecutive indices (their indices shifted right by 8 bits, that is divided by 256, are equal) or the mask is
  not set there. So off the 16 diagonal 256 x 256 blocks the mask word is 0.
-/
import proofs.«121382_j88570815578416_2_alg».proof.Pre_finite_inputs
import Idealize.ShloMosaic.Lib.ReduceAll
import Idealize.ShloMosaic.Lib.ValueIdx
import Idealize.ShloMosaic.Lib.Affine

noncomputable section

namespace Cert.PreMask

open Idealize.ShloMosaic Idealize.ShloMosaic.ValueIdx Cert.Pre_finite_inputs

instance : Subsingleton S_.Idx := ⟨fun a b => funext fun d => d.elim0⟩

/-- An index below 4096, as a 32-bit word shifted right by 8 bits, is the index divided by 256. -/
theorem shr8_toNat (k : Nat) (hk : k < 4096) : (IntOp.shrui .host (BitVec.ofNat 32 k) 8#32).toNat = k / 256 := by
  unfold IntOp.shrui
  rw [if_pos (by decide)]
  simp only [BitVec.ushiftRight_eq', BitVec.toNat_ushiftRight, BitVec.toNat_ofNat, Nat.shiftRight_eq_div_pow]
  have hmod : k % 2 ^ 32 = k := Nat.mod_eq_of_lt (by omega)
  rw [hmod]

/-- If the shifted words of two indices compare equal, the indices lie in the same block of 256. -/
theorem same_block_of_cmp (k c : Fin 4096)
    (h : IntOp.cmpi .eq (IntOp.shrui .host (BitVec.ofNat 32 k.val) 8#32) (IntOp.shrui .host (BitVec.ofNat 32 c.val) 8#32) = 1#1) :
    k.val / 256 = c.val / 256 := by
  have e : IntOp.shrui .host (BitVec.ofNat 32 k.val) 8#32 = IntOp.shrui .host (BitVec.ofNat 32 c.val) 8#32 := by
    by_contra hne
    have hb : (IntOp.shrui .host (BitVec.ofNat 32 k.val) 8#32 == IntOp.shrui .host (BitVec.ofNat 32 c.val) 8#32) = false :=
      beq_eq_false_iff_ne.2 hne
    have h' : BitVec.ofBool (IntOp.shrui .host (BitVec.ofNat 32 k.val) 8#32 == IntOp.shrui .host (BitVec.ofNat 32 c.val) 8#32) = 1#1 := h
    rw [hb] at h'
    exact absurd h' (by decide)
  rw [← shr8_toNat k.val k.isLt, ← shr8_toNat c.val c.isLt, e]

variable [Cert.Pre_finite_inputs.Facts]

/-- Under the precondition the mask word is 0 at every index whose row and column lie in different blocks of 256. -/
theorem mask_off_block {F : FTy → Type} [FloatOps F] (a0 : FVec F S8192x4096 .f32) (a1 : FVec F S4096x4096 .f32)
    (a2 : IVec S4096x4096 1) (h : Cert.Pre_finite_inputs.fn (F := F) a0 a1 a2 = fun _ => 1#1)
    (k c : Fin 4096) (hkc : k.val / 256 ≠ c.val / 256) : a2 (ix2 k c) = 0#1 := by
  have h0 := congrFun h ix0
  dsimp only [fn, fn_part1] at h0
  have h1 := (IntOp.andi_eq_one.1 h0).2
  have h2 := Host.reduce_andi_all _ _ _ _ ix0 h1 (ix2 k c)
  rcases IntOp.ori_eq_one.1 h2 with hA | hB
  · exact absurd (same_block_of_cmp k c hA) hkc
  · exact eq_zero_of_ne_one (IntOp.not_eq_one.1 hB)

end Cert.PreMask

end
-- ==== Proof.LibDot.lean ====
/-
  A plain matrix product read at an entry. For dimension numbers that contract the left operand's columns against the
  right operand's rows, with no batch axis, the contraction sum at row `a` and column `b` is the textbook
  sum over `k` of `l (a, k) * r (k, b)`, both for the accumulate-into-zero product of the matrix unit and for
  the host's general dot product, at the exact extended-real instance.
-/
import Idealize.ShloMosaic.Lib.ValueIdx
import Idealize.ShloMosaic.PureOps.Ideal.Laws

noncomputable section

open scoped BigOperators

namespace Cert.LibDot

open Idealize.ShloMosaic Idealize.ShloMosaic.ValueIdx

/-- The six axis lists of a rows-by-columns product. -/
structure IsPlain {M K N : Nat} (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {M K N : Nat} (D : DotDims ⟨2, ![M, K]⟩ ⟨2, ![K, N]⟩ ⟨2, ![M, N]⟩) (hD : IsPlain D)

include hD in
theorem contr_rank : D.contr.rank = 1 := by rw [D.rank_contr, hD.lc]; rfl

include hD in
theorem contr_size : D.contr.size ⟨0, by rw [contr_rank D hD]; exact Nat.one_pos⟩ = K := by
  have h := D.size_contr 0 (by rw [hD.lc]; exact Nat.one_pos)
  rw [h]
  simp only [hD.lc]
  rfl

include hD in
/-- The left operand is read at row `a` of the result and at the contraction coordinate. -/
theorem lhs0 (j : (⟨2, ![M, N]⟩ : Shape).Idx) (q : D.contr.Idx) : (D.lhsIdx j q 0).val = (j 0).val := by
  unfold DotDims.lhsIdx
  rw [dif_neg (by rw [hD.lb]; exact List.not_mem_nil), dif_pos (by rw [hD.ln]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln])

include hD in
theorem rhs1 (j : (⟨2, ![M, N]⟩ : Shape).Idx) (q : D.contr.Idx) : (D.rhsIdx j q 1).val = (j 1).val := by
  unfold DotDims.rhsIdx
  rw [dif_neg (by rw [hD.rb]; exact List.not_mem_nil), dif_pos (by rw [hD.rn]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln, hD.rn])

include hD in
/-- The contraction sum at (a, b) is the sum over `k` of the row entry times the column entry. -/
theorem plain_sum (l : (⟨2, ![M, K]⟩ : Shape).Idx → EReal) (r : (⟨2, ![K, N]⟩ : Shape).Idx → EReal) (a : Fin M) (b : Fin N) :
    ∑ q : D.contr.Idx, l (D.lhsIdx (ix2 a b) q) * r (D.rhsIdx (ix2 a b) q) = ∑ k : Fin K, l (ix2 a k) * r (ix2 k b) := by
  rw [← Equiv.sum_comp (contrEquiv1 D K (contr_rank D hD) (contr_size D hD)).symm]
  refine Finset.sum_congr rfl fun k _ => ?_
  have hk := contrEquiv1_symm_val D K (contr_rank D hD) (contr_size D hD) k
  have el : D.lhsIdx (ix2 a b) ((contrEquiv1 D K (contr_rank D hD) (contr_size D hD)).symm k) = ix2 a k :=
    funext fun x => Fin.ext (by
      match x with
      | ⟨0, _⟩ => exact lhs0 D hD _ _
      | ⟨1, _⟩ => exact (D.lhsIdx_val_of_single hD.lc _ _).trans hk)
  have er : D.rhsIdx (ix2 a b) ((contrEquiv1 D K (contr_rank D hD) (contr_size D hD)).symm k) = ix2 k b :=
    funext fun x => Fin.ext (by
      match x with
      | ⟨0, _⟩ => exact (D.rhsIdx_val_of_single hD.rc _ _).trans hk
      | ⟨1, _⟩ => exact rhs1 D hD _ _)
  rw [el, er]

include hD in
/-- The matrix unit's product into a zero accumulator, at an entry. -/
theorem matmul_zero_apply {φ₁ φ₂ : FTy} (prec : Option ContractPrecision)
    (l : FVec Ideal ⟨2, ![M, K]⟩ φ₁) (r : FVec Ideal ⟨2, ![K, N]⟩ φ₂) (a : Fin M) (b : Fin N) :
    FloatOps.matmul D prec l r (constant ⟨2, ![M, N]⟩ .f32 0x00000000#32) (ix2 a b) = ∑ k : Fin K, l (ix2 a k) * r (ix2 k b) :=
  (Ideal.matmul_constant_zero_apply D prec l r (ix2 a b)).trans (plain_sum D hD l r a b)

include hD in
/-- The host's general dot product, at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) :=
  (Ideal.dotGeneral_apply D prec sched l r (ix2 a b)).trans (plain_sum D hD l r a b)

end Cert.LibDot

end
-- ==== Proof.KernelPoint.lean ====
/-
  One grid point of the kernel, at the exact instance. The body loads a 256 x 256 block `bk` of `blocks`, the
  block `mf` of the mask (as numbers) at the same place, and a 2048 x 256 block `xb` of `x`; it forms
  `tanh (bk * mf)` entry by entry, narrows both operands (the identity on exact numbers) and multiplies them
  on the matrix unit into a zero accumulator. So entry `(p, q)` of what it stores is the sum over the 256
  `j` of `xb (p, j) * tanh (bk (j, q) * mf (j, q))`.
-/
import proofs.«121382_j88570815578416_2_alg».proof.Proof.Gen.KernelIdeal.Skeleton
import proofs.«121382_j88570815578416_2_alg».proof.Proof.LibDot
import Idealize.ShloMosaic.Lib.Pipeline.Value
import Idealize.ShloMosaic.Lib.ValueIdx
import Idealize.ShloMosaic.PureOps.Ideal.Laws

noncomputable section

open scoped BigOperators

namespace Cert.KernelIdeal.Point

open Cert.KernelIdeal Cert.KernelIdeal.Gen Idealize.ShloMosaic Idealize.ShloMosaic.ValueIdx

/-- The printed dimension numbers contract the left operand's columns against the right operand's rows. -/
theorem dot_plain : Cert.LibDot.IsPlain (M := 2048) (K := 256) (N := 256) dot_S2048x256_S256x256_S2048x256_1_0_0_1_n_n :=
  ⟨rfl, rfl, rfl, rfl, rfl, rfl⟩

/-- What one point stores, at an entry: the row of the `x` block against the column of `tanh (bk * mf)`. -/
theorem pay_apply (bk mf : Vec Ideal S256x256 .f32) (xb : Vec Ideal S2048x256 .f32) (p : Fin 2048) (q : Fin 256) :
    k0_pay1 (F := Ideal) bk mf xb (ix2 p q) = ∑ j : Fin 256, xb (ix2 p j) * Ideal.tanh (bk (ix2 j q) * mf (ix2 j q)) := by
  unfold k0_pay1
  rw [shapeCast_self]
  exact Cert.LibDot.matmul_zero_apply dot_S2048x256_S256x256_S2048x256_1_0_0_1_n_n dot_plain none _ _ p q

end Cert.KernelIdeal.Point

end
-- ==== Proof.KernelArray.lean ====
/-
  The kernel's result array as one function of the arrays the region finds.

  The grid has 4 x 16 points. Point `(i, b)` reads rows `2048 i ..` and columns `256 b ..` of `x`, the diagonal
  block `(b, b)` of `blocks` and of the mask (as numbers), and writes rows `2048 i ..`, columns `256 b ..` of the
  result. An entry `(r, c)` of its output block, `c = 256 b + q`, has `c / 256 = b`, so the 256 indices the point
  sums over are exactly the block of 256 that holds `c`: what the point writes is its block of the
  block-by-block product of `Spec`. The 64 output blocks tile the array, so the array ends as that product.
-/
import proofs.«121382_j88570815578416_2_alg».proof.Proof.Gen.KernelIdeal.Value
import proofs.«121382_j88570815578416_2_alg».proof.Proof.KernelPoint
import proofs.«121382_j88570815578416_2_alg».proof.Proof.Spec
import Idealize.ShloMosaic.Lib.StableHlo.Run

noncomputable section

open scoped BigOperators

namespace Cert.KernelIdeal.Array

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem origin_zero : (![0, 0] : Fin 2 → Nat) = fun _ => 0 := funext fun a => by fin_cases a <;> rfl

/-- The array the mask window stages is the mask read as numbers: the one host operation before the region. -/
theorem V_mask (c : Dev nD) :
    (V m c main_v0 : S4096x4096.Idx → EReal) = uitofp (F := Ideal) .f32 (m ((c : Thread nD τ).loc main_arg2)) := by
  dsimp only [Gen.V, Gen.hostOps0]
  after_results

/-- The result array as the region's arrays give it: the block-by-block product of `x` with `tanh (blocks * maskf)`. -/
abbrev result (c : Dev nD) : S8192x4096.Idx → EReal :=
  Cert.BlockDiag.blockwise (V m c main_arg0) (Cert.BlockDiag.weight (V m c main_arg1) (V m c main_v0))

/-- The printed index maps over the 64 points: the `x` window moves with the output window; the two square windows sit
    at the diagonal block numbered by the output's column block; the output's block numbers stay in 4 x 16. -/
theorem index_facts : ∀ t : Fin cfg0.N,
    win0_0.index t (0 : Fin 2) = win0_3.index t (0 : Fin 2)
    ∧ win0_0.index t (1 : Fin 2) = win0_3.index t (1 : Fin 2)
    ∧ win0_1.index t (0 : Fin 2) = win0_3.index t (1 : Fin 2)
    ∧ win0_1.index t (1 : Fin 2) = win0_3.index t (1 : Fin 2)
    ∧ win0_2.index t (0 : Fin 2) = win0_3.index t (1 : Fin 2)
    ∧ win0_2.index t (1 : Fin 2) = win0_3.index t (1 : Fin 2)
    ∧ win0_3.index t (0 : Fin 2) ≤ 3 ∧ win0_3.index t (1 : Fin 2) ≤ 15 :=
  (by decide +kernel : ∀ t : Fin grid0.N, _)

/-- Every one of the 4 x 16 output blocks is some point's. -/
theorem index_onto : ∀ (q0 : Fin 4) (q1 : Fin 16), ∃ t : Fin cfg0.N, win0_3.index t = ![q0.val, q1.val] :=
  (by decide +kernel : ∀ (q0 : Fin 4) (q1 : Fin 16), ∃ t : Fin grid0.N, win0_3.index t = ![q0.val, q1.val])

/-- One term of a point's sum is the term of the block-by-block product, once the three indices it reads are the
    product's. -/
theorem term_eq (X : S8192x4096.Idx → EReal) (Bk Mf : S4096x4096.Idx → EReal) (ix ix' : S8192x4096.Idx)
    (ib im iw : S4096x4096.Idx) (hx : ix = ix') (hb : ib = iw) (hm : im = iw) :
    X ix * Ideal.tanh (Bk ib * Mf im) = X ix' * Cert.BlockDiag.weight Bk Mf iw := by
  subst hx hb hm
  rfl

/-- What point `t` writes back is its block of `result`. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold out0_3
  rw [View.canon_unit_zero origin_zero]
  simp only [View.ld_unit_zero (S := S256x256) origin_zero, View.ld_unit_zero (S := S2048x256) origin_zero]
  obtain ⟨e0, e1, e2, e3, e4, e5, b0, b1⟩ := index_facts t
  funext y
  have hy0 : (y 0).val < 2048 := (y 0).isLt
  have hy1 : (y 1).val < 256 := (y 1).isLt
  show k0_pay1 (F := Ideal) (iblk m c 1 t) (iblk m c 2 t) (iblk m c 0 t) y
      = result m c (((cfg0.win 3).blk t).view.emb y)
  refine (congrArg (k0_pay1 (F := Ideal) (iblk m c 1 t) (iblk m c 2 t) (iblk m c 0 t)) (eq_ix2 y)).trans
    ((Cert.KernelIdeal.Point.pay_apply (iblk m c 1 t) (iblk m c 2 t) (iblk m c 0 t) (y 0) (y 1)).trans ?_)
  refine Finset.sum_congr rfl fun j _ => ?_
  have hj : j.val < 256 := j.isLt
  have hx : ((cfg0.win 0).blk t).view.emb (ix2 (y 0) j)
      = ix2 ((((cfg0.win 3).blk t).view.emb y) 0) (Cert.BlockDiag.inBlock ((((cfg0.win 3).blk t).view.emb y) 1) j) := by
    funext a; apply Fin.ext
    match a with
    | ⟨0, _⟩ => show win0_0.index t (0 : Fin 2) * 2048 + 1 * (y 0).val = win0_3.index t (0 : Fin 2) * 2048 + 1 * (y 0).val; omega
    | ⟨1, _⟩ => show win0_0.index t (1 : Fin 2) * 256 + 1 * j.val = (win0_3.index t (1 : Fin 2) * 256 + 1 * (y 1).val) / 256 * 256 + j.val; omega
  have hb : ((cfg0.win 1).blk t).view.emb (ix2 j (y 1))
      = ix2 (Cert.BlockDiag.inBlock ((((cfg0.win 3).blk t).view.emb y) 1) j) ((((cfg0.win 3).blk t).view.emb y) 1) := by
    funext a; apply Fin.ext
    match a with
    | ⟨0, _⟩ => show win0_1.index t (0 : Fin 2) * 256 + 1 * j.val = (win0_3.index t (1 : Fin 2) * 256 + 1 * (y 1).val) / 256 * 256 + j.val; omega
    | ⟨1, _⟩ => show win0_1.index t (1 : Fin 2) * 256 + 1 * (y 1).val = win0_3.index t (1 : Fin 2) * 256 + 1 * (y 1).val; omega
  have hm : ((cfg0.win 2).blk t).view.emb (ix2 j (y 1))
      = ix2 (Cert.BlockDiag.inBlock ((((cfg0.win 3).blk t).view.emb y) 1) j) ((((cfg0.win 3).blk t).view.emb y) 1) := by
    funext a; apply Fin.ext
    match a with
    | ⟨0, _⟩ => show win0_2.index t (0 : Fin 2) * 256 + 1 * j.val = (win0_3.index t (1 : Fin 2) * 256 + 1 * (y 1).val) / 256 * 256 + j.val; omega
    | ⟨1, _⟩ => show win0_2.index t (1 : Fin 2) * 256 + 1 * (y 1).val = win0_3.index t (1 : Fin 2) * 256 + 1 * (y 1).val; omega
  exact term_eq (V m c main_arg0) (V m c main_arg1) (V m c main_v0) _ _ _ _ _ hx hb hm

/-- An index of the array is in point `t`'s block iff each coordinate is in the block's range on its axis. -/
theorem mem_blk (t : Fin cfg0.N) (i : S8192x4096.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v1).slice (win0_3.rect t)).set ↔ _
  rw [View.set_slice_whole, Rect.mem_set_unit]
  exact Iff.rfl

/-- The 64 output blocks cover the array: the point with block numbers `(r / 2048, c / 256)` covers `(r, c)`. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := index_onto ⟨(i 0).val / 2048, by omega⟩ ⟨(i 1).val / 256, by omega⟩
  have q0 : win0_3.index t (0 : Fin 2) = (i 0).val / 2048 := congrFun ht 0
  have q1 : win0_3.index t (1 : Fin 2) = (i 1).val / 256 := congrFun ht 1
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 256 ≤ (i 1).val ∧ (i 1).val < win0_3.index t (1 : Fin 2) * 256 + 256; omega

/-- The result array after the run, in the argument arrays: the block-by-block product of `x` with
    `tanh (blocks * maskf)`, `maskf` the mask read as numbers. -/
theorem final (c : Dev nD) : (dats m 0 c).arrAt 3 cfg0.N
    = Cert.BlockDiag.blockwise (m ((c : Thread nD τ).loc main_arg0))
        (Cert.BlockDiag.weight (m ((c : Thread nD τ).loc main_arg1)) (uitofp (F := Ideal) .f32 (m ((c : Thread nD τ).loc main_arg2)))) := by
  rw [(dats m 0 c).arrAt_eq_of_cover 3 (result m c) (fun t _ => flushed_eq m c t) cover]
  show Cert.BlockDiag.blockwise (V m c main_arg0) (Cert.BlockDiag.weight (V m c main_arg1) (V m c main_v0)) = _
  rw [V_main_arg0, V_main_arg1, V_mask]

/-- The kernel's run with the result array named. -/
theorem run : θ_run defs (onTc (τ := τ) (main (F := Ideal))) ⟨m, fun _ => 0, ρ⟩ fun r => ∀ c : Dev nD,
      r.2.mem ((c : Thread nD τ).loc main_v1)
        = Cert.BlockDiag.blockwise (m ((c : Thread nD τ).loc main_arg0))
            (Cert.BlockDiag.weight (m ((c : Thread nD τ).loc main_arg1)) (uitofp (F := Ideal) .f32 (m ((c : Thread nD τ).loc main_arg2))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Array

end
-- ==== Proof.RefValue.lean ====
/-
  The reference's result, index by index: entry `(r, c)` of `x @ tanh (blocks * maskf)` is the sum over all
  4096 `k` of `x (r, k) * tanh (blocks (k, c) * maskf (k, c))`, `maskf` the mask read as numbers — the dense
  product of `Spec`.
-/
import proofs.«121382_j88570815578416_2_alg».proof.Proof.Gen.ReferenceIdeal.Read
import proofs.«121382_j88570815578416_2_alg».proof.Proof.Spec

noncomputable section

open scoped BigOperators

namespace Cert.ReferenceIdeal.RefValue

open Cert.ReferenceIdeal Cert.ReferenceIdeal.Read Idealize.ShloMosaic Idealize.ShloMosaic.ValueIdx

/-- The reference's last stage is the dense product of `x` with the weight matrix. -/
theorem result_eq (x0 : FVec Ideal S8192x4096 .f32) (x1 : FVec Ideal S4096x4096 .f32) (x2 : IVec S4096x4096 1) :
    val_main_v3 (F := Ideal) x0 x1 x2
      = Cert.BlockDiag.dense x0 (Cert.BlockDiag.weight x1 (uitofp (F := Ideal) .f32 x2)) := by
  funext i
  rw [val_main_v3_apply]
  unfold Cert.BlockDiag.dense
  refine Finset.sum_congr rfl fun k _ => ?_
  have el : lidx_main_v3 i k = ix2 (i 0) k :=
    funext fun a => Fin.ext (by match a with | ⟨0, _⟩ => rfl | ⟨1, _⟩ => rfl)
  have er : ridx_main_v3 i k = ix2 k (i 1) :=
    funext fun a => Fin.ext (by match a with | ⟨0, _⟩ => rfl | ⟨1, _⟩ => rfl)
  rw [el, er]
  rfl

end Cert.ReferenceIdeal.RefValue

end
-- ==== Proof.lean ====
/-
  The kernel multiplies `x` (8192 x 4096) by `tanh (blocks * mask)` (4096 x 4096) using only the 16 diagonal
  256 x 256 blocks of the second factor: column `c` of the result is computed from the 256 rows of the block that
  holds `c`. The reference multiplies by the whole matrix. The precondition says, beside the finiteness of the
  float inputs, that the mask is zero off the diagonal blocks; there `blocks * 0 = 0` and `tanh 0 = 0`, so the
  other 15 tiles of each of the reference's sums contribute `x * 0 = 0` and the two results agree entry by entry
  on the extended reals. Finiteness is not used.

  The three frames are the generated runs; the idealization rewrote nothing, so `preserves` is `True`.
-/
import proofs.«121382_j88570815578416_2_alg».proof.Defs
import proofs.«121382_j88570815578416_2_alg».proof.Proof.Gen.Kernel
import proofs.«121382_j88570815578416_2_alg».proof.Proof.Gen.Kernel.Skeleton
import proofs.«121382_j88570815578416_2_alg».proof.Proof.Gen.Kernel.Launch
import proofs.«121382_j88570815578416_2_alg».proof.Proof.Gen.Kernel.Points
import proofs.«121382_j88570815578416_2_alg».proof.Proof.Gen.Kernel.Frame
import proofs.«121382_j88570815578416_2_alg».proof.Proof.Gen.KernelIdeal
import proofs.«121382_j88570815578416_2_alg».proof.Proof.Gen.KernelIdeal.Skeleton
import proofs.«121382_j88570815578416_2_alg».proof.Proof.Gen.KernelIdeal.Launch
import proofs.«121382_j88570815578416_2_alg».proof.Proof.Gen.KernelIdeal.Points
import proofs.«121382_j88570815578416_2_alg».proof.Proof.Gen.KernelIdeal.Frame
import proofs.«121382_j88570815578416_2_alg».proof.Proof.Gen.ReferenceIdeal
import proofs.«121382_j88570815578416_2_alg».proof.Proof.Gen.Pre_finite_inputs
import proofs.«121382_j88570815578416_2_alg».proof.Proof.Gen.KernelIdeal.Value
import proofs.«121382_j88570815578416_2_alg».proof.Proof.Gen.ReferenceIdeal.Run
import proofs.«121382_j88570815578416_2_alg».proof.Proof.Gen.ReferenceIdeal.Read
import Idealize.ShloMosaic.Adequacy
import Idealize.ShloMosaic.Init

import proofs.«121382_j88570815578416_2_alg».proof.Proof.Spec
import proofs.«121382_j88570815578416_2_alg».proof.Proof.PreMask
import proofs.«121382_j88570815578416_2_alg».proof.Proof.KernelArray
import proofs.«121382_j88570815578416_2_alg».proof.Proof.RefValue

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Under the precondition the weight `tanh (blocks * maskf)` vanishes at every index whose row and column lie in
    different blocks of 256: the mask word is 0 there, so the mask read as a number is 0. -/
theorem weight_off (a0 : FVec Ideal Cert.Pre_finite_inputs.S8192x4096 .f32) (a1 : FVec Ideal Cert.Pre_finite_inputs.S4096x4096 .f32)
    (a2 : IVec Cert.Pre_finite_inputs.S4096x4096 1) (h : Cert.Pre_finite_inputs.fn (F := Ideal) a0 a1 a2 = fun _ => 1#1)
    (k c : Fin 4096) (hkc : k.val / 256 ≠ c.val / 256) :
    Cert.BlockDiag.weight a1 (uitofp (F := Ideal) .f32 a2) (ix2 k c) = 0 := by
  refine Cert.BlockDiag.weight_eq_zero _ _ _ ?_
  show FloatOps.uitofp (F := Ideal) .f32 (a2 (ix2 k c)) = 0
  rw [Cert.PreMask.mask_off_block a0 a1 a2 h k c hkc]
  show (((0#1 : BitVec 1).toNat : ℝ) : EReal) = 0
  simp

/-- Both runs end with the result array at the block-by-block product: the kernel's by its run, the reference's
    because its dense product is the block-by-block one when the weight vanishes off the diagonal blocks. -/
theorem algebraic : Cert.algebraic_KernelIdeal_ReferenceIdeal := by
  intro m ρ m' ρ' hpre hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v3_eq _ _ _).trans ((Cert.ReferenceIdeal.RefValue.result_eq _ _ _).trans
    (Cert.BlockDiag.dense_eq_blockwise _ _ (fun k cc hk => weight_off _ _ _ (hpre c) k cc hk)))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
